-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : IVec S32768 32) (main_arg1 : FVec F S8192x512 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S32768 : Shape := ⟨1, ![32768]⟩
abbrev S8192x512 : Shape := ⟨2, ![8192, 512]⟩
abbrev S1x32768 : Shape := ⟨2, ![1, 32768]⟩
abbrev S32768x512 : Shape := ⟨2, ![32768, 512]⟩
abbrev S1x1024 : Shape := ⟨2, ![1, 1024]⟩
abbrev S2048x512 : Shape := ⟨2, ![2048, 512]⟩
abbrev S1024x512 : Shape := ⟨2, ![1024, 512]⟩
abbrev S2048x1 : Shape := ⟨2, ![2048, 1]⟩
abbrev S2048x1024 : Shape := ⟨2, ![2048, 1024]⟩
abbrev S32x1024x512 : Shape := ⟨3, ![32, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S32768, .i32⟩
  | .hbm, ⟨1, _⟩ => ⟨S8192x512, .f32⟩
  | .hbm, ⟨2, _⟩ => ⟨S1x32768, .i32⟩
  | .hbm, ⟨3, _⟩ => ⟨S8192x512, .bf16⟩
  | .hbm, ⟨4, _⟩ => ⟨S32768x512, .f32⟩
  | .hbm, ⟨5, _⟩ => ⟨S32x1024x512, .f32⟩
  | .local _ .vmem, ⟨0, _⟩ => ⟨S1x1024, .i32⟩
  | .local _ .vmem, ⟨1, _⟩ => ⟨S1x1024, .i32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768_S1x32768 : S32768.ShapeCasts S1x32768
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S2048x1_d0_w32 : S2048x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S32768x512_S32x1024x512 : S32768x512.ShapeCasts S32x1024x512
  dot_S2048x1024_S2048x512_S1024x512_0_0_1_1_n_n_wf : DotDims.WF S2048x1024 S2048x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x32768.size a
  hwx0_0 : ∀ i : grid0.Coords, EltTy.bits .i32 = 32 ∨ (Rect.block (s := S1x32768) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)

variable [Facts₀]

def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768 : Shape := ⟨1, ![32768]⟩
abbrev S8192x512 : Shape := ⟨2, ![8192, 512]⟩
abbrev S32768x1 : Shape := ⟨2, ![32768, 1]⟩
abbrev S1x8192 : Shape := ⟨2, ![1, 8192]⟩
abbrev S32768x8192 : Shape := ⟨2, ![32768, 8192]⟩
abbrev S32768x512 : Shape := ⟨2, ![32768, 512]⟩
abbrev S32x1024x512 : Shape := ⟨3, ![32, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S32768, .i32⟩
  | .hbm, ⟨1, _⟩ => ⟨S8192x512, .f32⟩
  | .hbm, ⟨2, _⟩ => ⟨S32768x1, .i32⟩
  | .hbm, ⟨3, _⟩ => ⟨S1x8192, .i32⟩
  | .hbm, ⟨4, _⟩ => ⟨S32768x8192, .i32⟩
  | .hbm, ⟨5, _⟩ => ⟨S32768x8192, .i32⟩
  | .hbm, ⟨6, _⟩ => ⟨S32768x8192, .i1⟩
  | .hbm, ⟨7, _⟩ => ⟨S32768x8192, .f32⟩
  | .hbm, ⟨8, _⟩ => ⟨S32768x512, .f32⟩
  | .hbm, ⟨9, _⟩ => ⟨S32x1024x512, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  shapeCasts_S32768x512_S32x1024x512 : S32768x512.ShapeCasts S32x1024x512
  dot_S32768x8192_S8192x512_S32768x512_1_0_0_1_n_n_wf : DotDims.WF S32768x8192 S8192x512 S32768x512 [1] [0] [0] [1] [] []

variable [Facts₀]

def dot_S32768x8192_S8192x512_S32768x512_1_0_0_1_n_n : DotDims S32768x8192 S8192x512 S32768x512 where
  lhsContracting := [1]
  rhsContracting := [0]
  lhsNonContracting := [0]
  rhsNonContracting := [1]
  lhsBatch := []
  rhsBatch := []
  wf := dot_S32768x8192_S8192x512_S32768x512_1_0_0_1_n_n_wf

class Facts : Prop extends Facts₀ where

variable [Facts]
-- ==== Proof.LibBlockSum.lean ====
/-
  General facts for a sum computed block by block, and for the words a blocked one-hot comparison meets.

  * `sum_range_blocks`: in any commutative additive monoid a sum over `B · K` consecutive naturals is the sum of its
    `K` consecutive blocks of `B` terms (no finiteness or cancellation: it holds on the extended reals);
    `sum_fin_blocks` is the same with the outer sum over `Fin (B · K)` and the inner sums over `Fin B`.
  * `cmpi_eq_comm`: the integer equality test does not depend on the order of its operands.
  * `ofNat_add_ofNat_mul`: the word of lane `j` plus the word of `k` times the word of `B` is the word of
    `B · k + j` — the code a lane of block `k` stands for — at 32 bits, whatever the sizes (both sides wrap alike).
-/
import Idealize.ShloMosaic.PureOps.Ideal

open scoped BigOperators
open Idealize.ShloMosaic

namespace Cert.Lib.BlockSum

/-- A sum over `B · K` consecutive naturals is the sum of its `K` consecutive blocks of `B`. -/
theorem sum_range_blocks {M : Type*} [AddCommMonoid M] (f : ℕ → M) (B : ℕ) :
    ∀ K : ℕ, ∑ r ∈ Finset.range (B * K), f r = ∑ k ∈ Finset.range K, ∑ j ∈ Finset.range B, f (B * k + j)
  | 0 => by simp
  | K + 1 => by
    rw [Nat.mul_succ, Finset.sum_range_add, Finset.sum_range_succ, sum_range_blocks f B K]

/-- The same over finite index types: `B · K` terms are `K` blocks of `B`. -/
theorem sum_fin_blocks {M : Type*} [AddCommMonoid M] (f : ℕ → M) (B K : ℕ) :
    ∑ r : Fin (B * K), f r.val = ∑ k ∈ Finset.range K, ∑ j : Fin B, f (B * k + j.val) := by
  rw [Fin.sum_univ_eq_sum_range f (B * K), sum_range_blocks f B K]
  exact Finset.sum_congr rfl fun k _ => (Fin.sum_univ_eq_sum_range (fun j => f (B * k + j)) B).symm

/-- The equality test of two words does not depend on the order of its operands. -/
theorem cmpi_eq_comm {w : ℕ} (a b : BitVec w) : IntOp.cmpi .eq a b = IntOp.cmpi .eq b a := by
  unfold IntOp.cmpi
  exact congrArg BitVec.ofBool BEq.comm

/-- The word of `B · k + j` from the lane's word `j`, the block's word `k` and the block length's word `B`. -/
theorem ofNat_add_ofNat_mul (j k B : ℕ) :
    BitVec.ofNat 32 j + BitVec.ofNat 32 k * BitVec.ofNat 32 B = BitVec.ofNat 32 (B * k + j) := by
  rw [BitVec.ofNat_add, BitVec.ofNat_mul, BitVec.add_comm, BitVec.mul_comm]

end Cert.Lib.BlockSum
-- ==== Proof.Spec.lean ====
/-
  The mathematics of the codebook lookup, with no program in sight.

  Token `n` carries a 32-bit index word `x`. Against code `r` its weight is the equality test's bit read as a
  number: `hot x r` is 1 when `x` is the word of `r` and 0 otherwise. Entry `(n, e)` of the looked-up array is

      ∑ r < 8192, hot x r · w (r, e),

  the product of the one-hot row of token `n` with column `e` of the codebook `w`. One program forms this sum in one
  contraction; the other forms it over four consecutive blocks of 2048 codes, adding each block's sum to a running
  total. Addition on the extended reals is commutative and associative with no side condition, so splitting a sum
  of `B · K` terms into `K` consecutive blocks of `B` needs no finiteness (`LibBlockSum.lean`): after the four
  blocks the running total is the whole sum, `partSum_four`.
-/
import Idealize.ShloMosaic.PureOps.Ideal
import Idealize.ShloMosaic.Lib.ValueIdx
import proofs.«125934_j49134425866735_1_alg».proof.Proof.LibBlockSum

noncomputable section

open scoped BigOperators
open Idealize.ShloMosaic Idealize.ShloMosaic.ValueIdx

namespace Cert.Codebook

/-- The weight of code `r` for the index word `x`: the bit of "`x` is the 32-bit word of `r`", as a number. -/
def hot (x : BitVec 32) (r : ℕ) : EReal := (((IntOp.cmpi .eq x (BitVec.ofNat 32 r)).toNat : ℝ) : EReal)

/-- Row `r`, column `e` of the codebook; the row is taken modulo 8192 so that the function is total on ℕ
    (every row the sums below visit is already below 8192). -/
def rowAt (w : (⟨2, ![8192, 512]⟩ : Shape).Idx → EReal) (r : ℕ) (e : Fin 512) : EReal :=
  w (ix2 (⟨r % 8192, Nat.mod_lt _ (by decide)⟩ : Fin 8192) e)

/-- One term of the lookup sum: code `r`'s weight times its row's entry. -/
def term (x : BitVec 32) (w : (⟨2, ![8192, 512]⟩ : Shape).Idx → EReal) (e : Fin 512) (r : ℕ) : EReal :=
  hot x r * rowAt w r e

/-- The sum over block `k` of the codes: rows `2048 k` to `2048 k + 2047`. -/
def blockSum (x : BitVec 32) (w : (⟨2, ![8192, 512]⟩ : Shape).Idx → EReal) (e : Fin 512) (k : ℕ) : EReal :=
  ∑ j : Fin 2048, term x w e (2048 * k + j.val)

/-- The running total after the first `K` blocks. -/
def partSum (x : BitVec 32) (w : (⟨2, ![8192, 512]⟩ : Shape).Idx → EReal) (e : Fin 512) (K : ℕ) : EReal :=
  ∑ k ∈ Finset.range K, blockSum x w e k

/-- The whole lookup sum, over all 8192 codes at once. -/
def fullSum (x : BitVec 32) (w : (⟨2, ![8192, 512]⟩ : Shape).Idx → EReal) (e : Fin 512) : EReal :=
  ∑ r : Fin 8192, term x w e r.val

/-- The looked-up array: entry `(n, e)` is the whole lookup sum of token `n`'s index word against column `e`. -/
def lookup (x : (⟨1, ![32768]⟩ : Shape).Idx → BitVec 32) (w : (⟨2, ![8192, 512]⟩ : Shape).Idx → EReal) :
    (⟨2, ![32768, 512]⟩ : Shape).Idx → EReal :=
  fun i => fullSum (x (ix1 (i 0))) w (i 1)

/-- The running total starts at the first block's sum added to zero. -/
theorem partSum_one (x : BitVec 32) (w : (⟨2, ![8192, 512]⟩ : Shape).Idx → EReal) (e : Fin 512) :
    partSum x w e 1 = 0 + blockSum x w e 0 := by
  unfold partSum
  rw [Finset.sum_range_one, zero_add]

/-- Each further block adds its sum to the running total. -/
theorem partSum_succ (x : BitVec 32) (w : (⟨2, ![8192, 512]⟩ : Shape).Idx → EReal) (e : Fin 512) (K : ℕ) :
    partSum x w e (K + 1) = partSum x w e K + blockSum x w e K :=
  Finset.sum_range_succ _ _

/-- After the four blocks of 2048 codes the running total is the whole lookup sum. -/
theorem partSum_four (x : BitVec 32) (w : (⟨2, ![8192, 512]⟩ : Shape).Idx → EReal) (e : Fin 512) :
    partSum x w e 4 = fullSum x w e := by
  unfold partSum fullSum blockSum
  rw [Fin.sum_univ_eq_sum_range (fun r => term x w e r) 8192, show (8192 : ℕ) = 2048 * 4 from rfl,
    Cert.Lib.BlockSum.sum_range_blocks (fun r => term x w e r) 2048 4]
  refine Finset.sum_congr rfl fun k _ => ?_
  exact Fin.sum_univ_eq_sum_range (fun j => term x w e (2048 * k + j)) 2048

end Cert.Codebook

end
-- ==== Proof.RefSide.lean ====
/-
  The reference at an entry. Its one-hot matrix holds at `(n, r)` the bit of "token `n`'s index word is the word of
  `r`", read as a number, and its one contraction multiplies row `n` of that matrix into column `e` of the
  codebook: entry `(n, e)` of the product is the whole lookup sum `fullSum` of the token's word.
-/
import proofs.«125934_j49134425866735_1_alg».proof.Proof.Gen.ReferenceIdeal.Read
import proofs.«125934_j49134425866735_1_alg».proof.Proof.Spec

noncomputable section

open scoped BigOperators
open Idealize.ShloMosaic Idealize.ShloMosaic.ValueIdx

namespace Cert.ReferenceIdeal.RefValue

open Cert.ReferenceIdeal Cert.ReferenceIdeal.Read Cert.Codebook

/-- Entry `(n, e)` of the reference's product, before its final reshape: the lookup sum over all 8192 codes. -/
theorem product_apply (x0 : (⟨S32768, .i32⟩ : BufTy).Contents (Elt Ideal)) (x1 : (⟨S8192x512, .f32⟩ : BufTy).Contents (Elt Ideal))
    (n : Fin 32768) (e : Fin 512) :
    val_main_v1 (F := Ideal) x0 x1 (ix2 n e) = fullSum (x0 (ix1 n)) x1 e := by
  rw [val_main_v1_apply]
  unfold fullSum term
  refine Finset.sum_congr rfl fun k _ => ?_
  rw [val_main_v0_apply, val_main_call0_v4_apply, val_main_call0_v2_apply, val_main_call0_v0_apply,
    val_main_call0_v3_apply, val_main_call0_v1_apply]
  have e1 : idx_main_call0_v0 (idx_main_call0_v2 (lidx_main_v1 (ix2 n e) k)) = ix1 n :=
    funext fun a => Fin.ext (by match a with | ⟨0, _⟩ => rfl)
  have e2 : ridx_main_v1 (ix2 n e) k = ix2 (⟨k.val % 8192, Nat.mod_lt _ (by decide)⟩ : Fin 8192) e :=
    funext fun a => Fin.ext (by
      match a with
      | ⟨0, _⟩ => exact (Nat.mod_eq_of_lt k.isLt).symm
      | ⟨1, _⟩ => rfl)
  rw [e1, e2]
  rfl

/-- The reference's product, before its final reshape, is the looked-up array. -/
theorem product_eq (x0 : (⟨S32768, .i32⟩ : BufTy).Contents (Elt Ideal)) (x1 : (⟨S8192x512, .f32⟩ : BufTy).Contents (Elt Ideal)) :
    val_main_v1 (F := Ideal) x0 x1 = lookup x0 x1 := by
  funext i
  obtain ⟨n, e, rfl⟩ : ∃ (n : Fin 32768) (e : Fin 512), i = ix2 n e := ⟨i 0, i 1, eq_ix2 i⟩
  exact product_apply x0 x1 n e

end Cert.ReferenceIdeal.RefValue

end
-- ==== Proof.Payload.lean ====
/-
  The kernel body's arithmetic at one entry, over the extended reals.

  At grid point `(i, k)` the body holds a row of 1024 index words `idx`, a block `blk` of 2048 codebook rows and the
  running total `acc` of 1024 × 512 entries. It forms the 2048 × 1024 matrix whose `(j, p)` entry is the bit of
  "the word of lane `j` plus the word of `2048 k` is `idx p`" read as a number — the transposed one-hot block —,
  contracts its first axis against the first axis of `blk`, and adds the product to `acc`. So entry `(p, q)` of what
  it stores is

      acc (p, q) + ∑ j < 2048, hot (idx p) (2048 k + j) · blk (j, q).

  The first store of a token tile (`k = 0`) is the zero block.
-/
import proofs.«125934_j49134425866735_1_alg».proof.Proof.Gen.KernelIdeal.Skeleton
import proofs.«125934_j49134425866735_1_alg».proof.Proof.Spec
import Idealize.ShloMosaic.Lib.Pipeline.Value
import Idealize.ShloMosaic.Lib.ValueIdx
import Idealize.ShloMosaic.PureOps.Ideal.Laws
import Idealize.ShloMosaic.Lib.KernelVsHost

noncomputable section

open scoped BigOperators
open Idealize.ShloMosaic Idealize.ShloMosaic.ValueIdx

namespace Cert.KernelIdeal.Body

open Cert.KernelIdeal Cert.KernelIdeal.Gen Cert.Codebook Cert.Lib.BlockSum

/-- The zero block, at any entry. -/
theorem zero_apply (y : S1024x512.Idx) : k0_pay1 (F := Ideal) y = 0 := by
  unfold k0_pay1
  rw [shapeCast_self]
  exact Ideal.ofBits_zero_f32

/-- The contraction's left operand index on its free axis: the result's row. -/
theorem lhs_free (y : S1024x512.Idx) (k : dot_S2048x1024_S2048x512_S1024x512_0_0_1_1_n_n.contr.Idx) :
    (dot_S2048x1024_S2048x512_S1024x512_0_0_1_1_n_n.lhsIdx y k 1).val = (y 0).val := by
  unfold DotDims.lhsIdx
  rw [dif_neg (show ¬(1 : Fin S2048x1024.rank) ∈ dot_S2048x1024_S2048x512_S1024x512_0_0_1_1_n_n.lhsBatch by decide),
    dif_pos (show (1 : Fin S2048x1024.rank) ∈ dot_S2048x1024_S2048x512_S1024x512_0_0_1_1_n_n.lhsNonContracting by decide)]
  rfl

/-- The contraction's right operand index on its free axis: the result's column. -/
theorem rhs_free (y : S1024x512.Idx) (k : dot_S2048x1024_S2048x512_S1024x512_0_0_1_1_n_n.contr.Idx) :
    (dot_S2048x1024_S2048x512_S1024x512_0_0_1_1_n_n.rhsIdx y k 1).val = (y 1).val := by
  unfold DotDims.rhsIdx
  rw [dif_neg (show ¬(1 : Fin S2048x512.rank) ∈ dot_S2048x1024_S2048x512_S1024x512_0_0_1_1_n_n.rhsBatch by decide),
    dif_pos (show (1 : Fin S2048x512.rank) ∈ dot_S2048x1024_S2048x512_S1024x512_0_0_1_1_n_n.rhsNonContracting by decide)]
  rfl

/-- The column of code words of block `k`, spread along the tokens: at `(j, p)` the word of code `2048 k + j`. -/
theorem codes_apply (k : ℕ) (j : Fin 2048) (p : Fin 1024) :
    broadcastTo S2048x1024
        (addi (iota .tc S2048x1 32 [0] iota_S2048x1_d0_w32) (broadcast S2048x1 (Scalar.muli (BitVec.ofNat 32 k) 2048#32)))
        broadcasts_S2048x1_S2048x1024 (ix2 j p)
      = BitVec.ofNat 32 (2048 * k + j.val) := by
  rw [broadcastTo_apply _ broadcasts_S2048x1_S2048x1024 (ix2 j p) (ix2 j (0 : Fin 1)) (fun a => by
    match a with
    | ⟨0, _⟩ => show j.val = if (2048 : Nat) = 1 then 0 else j.val; rw [if_neg (by decide)]
    | ⟨1, _⟩ => show 0 = if (1 : Nat) = 1 then 0 else p.val; rw [if_pos rfl])]
  show IntOp.addi (iota .tc S2048x1 32 [0] iota_S2048x1_d0_w32 (ix2 j (0 : Fin 1))) (Scalar.muli (BitVec.ofNat 32 k) 2048#32) = _
  rw [iota_single_apply]
  exact ofNat_add_ofNat_mul j.val k 2048

/-- The row of index words, spread along the codes: at `(j, p)` token `p`'s word. -/
theorem row_apply (idx : Vec Ideal S1x1024 .i32) (j : Fin 2048) (p : Fin 1024) :
    broadcastTo S2048x1024 idx broadcasts_S1x1024_S2048x1024 (ix2 j p) = idx (ix2 (0 : Fin 1) p) :=
  broadcastTo_apply _ broadcasts_S1x1024_S2048x1024 (ix2 j p) (ix2 (0 : Fin 1) p) (fun a => by
    match a with
    | ⟨0, _⟩ => show 0 = if (1 : Nat) = 1 then 0 else j.val; rw [if_pos rfl]
    | ⟨1, _⟩ => show p.val = if (1024 : Nat) = 1 then 0 else p.val; rw [if_neg (by decide)])

/-- An equality test's bit, widened to a word, converted as a signed integer and narrowed, is the bit's number. -/
theorem weight_apply (X Y : IVec S2048x1024 32) (y : S2048x1024.Idx) :
    (truncf .bf16 (sitofp .f32 (extui 32 (cmpi .eq X Y) natLt_1_32)) bitsLt_bf16_f32 : FVec Ideal S2048x1024 .bf16) y
      = (((IntOp.cmpi .eq (X y) (Y y)).toNat : ℝ) : EReal) := by
  show ((((IntOp.cmpi .eq (X y) (Y y)).setWidth 32).toInt : ℝ) : EReal) = _
  rw [toInt_setWidth_bit]
  norm_cast

/-- Entry `(p, q)` of the block the body stores: the running total there plus block `k`'s weighted rows. -/
theorem accumulate_apply (i : grid0.Coords) (idx : Vec Ideal S1x1024 .i32) (blk : Vec Ideal S2048x512 .bf16)
    (acc : Vec Ideal S1024x512 .f32) (p : Fin 1024) (q : Fin 512) :
    k0_pay2 (F := Ideal) i idx blk acc (ix2 p q)
      = acc (ix2 p q) + ∑ j : Fin 2048, hot (idx (ix2 (0 : Fin 1) p)) (2048 * (i 1).val + j.val) * blk (ix2 j q) := by
  unfold k0_pay2
  dsimp only
  rw [shapeCast_self]
  refine (congrArg (acc (ix2 p q) + ·) (Ideal.matmul_constant_zero_apply
    dot_S2048x1024_S2048x512_S1024x512_0_0_1_1_n_n none _ _ (ix2 p q))).trans ?_
  rw [← Equiv.sum_comp (contrEquiv1 dot_S2048x1024_S2048x512_S1024x512_0_0_1_1_n_n 2048 rfl rfl).symm]
  refine congrArg (acc (ix2 p q) + ·) (Finset.sum_congr rfl fun j _ => ?_)
  have hj := contrEquiv1_symm_val dot_S2048x1024_S2048x512_S1024x512_0_0_1_1_n_n 2048 rfl rfl j
  have el : dot_S2048x1024_S2048x512_S1024x512_0_0_1_1_n_n.lhsIdx (ix2 p q)
      ((contrEquiv1 dot_S2048x1024_S2048x512_S1024x512_0_0_1_1_n_n 2048 rfl rfl).symm j) = ix2 j p :=
    funext fun a => Fin.ext (by
      match a with
      | ⟨0, _⟩ => exact (dot_S2048x1024_S2048x512_S1024x512_0_0_1_1_n_n.lhsIdx_val_of_single rfl _ _).trans hj
      | ⟨1, _⟩ => exact lhs_free _ _)
  have er : dot_S2048x1024_S2048x512_S1024x512_0_0_1_1_n_n.rhsIdx (ix2 p q)
      ((contrEquiv1 dot_S2048x1024_S2048x512_S1024x512_0_0_1_1_n_n 2048 rfl rfl).symm j) = ix2 j q :=
    funext fun a => Fin.ext (by
      match a with
      | ⟨0, _⟩ => exact (dot_S2048x1024_S2048x512_S1024x512_0_0_1_1_n_n.rhsIdx_val_of_single rfl _ _).trans hj
      | ⟨1, _⟩ => exact rhs_free _ _)
  rw [el, er, shapeCast_self, shapeCast_self, weight_apply, codes_apply, row_apply, cmpi_eq_comm]
  rfl

end Cert.KernelIdeal.Body

end
-- ==== Proof.Pieces.lean ====
/-
  What one run of the body leaves behind, in each of its three cases.

  The body always stores one block into the carried total: the step's payload `k0_pay2` of the index words, the
  codebook rows and the total it read. At the first point of a token tile it first stores the zero block there and
  reads that back as the total; at the last point it afterwards reads the total it has just stored and stores it
  into the output block. Every one of these stores covers its whole 1024 × 512 buffer, so a buffer ends holding the
  payload of the last store into it, and a read that follows a store reads that store's payload:

    first point   total  = payload (words, rows, zero block)
    middle point  total  = payload (words, rows, total found)
    last point    total  = payload (words, rows, total found),  output = the same block.

  Nothing here depends on what the payload computes, so the statements hold for any float values.
-/
import proofs.«125934_j49134425866735_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The offsets of every store and load of the body: the origin. -/
theorem hz : (![0, 0] : Fin 2 → Nat) = fun _ => 0 := funext fun a => by fin_cases a <;> rfl

/-- A middle point (`k = 1, 2`): the total ends at the step's payload over the total the point found. -/
theorem scratch_B (c : Dev nD) (i : grid0.Coords) (arg2 : Memref sig .tc .vmem S1x1024 .i32) (harg2 : arg2.IsWhole)
    (arg3 : Memref sig .tc .vmem S2048x512 .bf16) (harg3 : arg3.IsWhole) (arg4 : Memref sig .tc .vmem S1024x512 .f32) (harg4 : arg4.IsWhole)
    (arg5 : Memref sig .tc .vmem S1024x512 .f32) (harg5 : arg5.IsWhole) (hc0 : ¬cond0_0 i) (hc1 : ¬cond0_1 i)
    (x0 : Vec F S1x1024 .i32) (x1 : Vec F S2048x512 .bf16) (xs0 : Vec F S1024x512 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S1024x512) hz]
  simp only [View.readAt_eq_ld, harg2.read_unread, harg3.read_unread, harg5.read_unread,
    View.ld_unit_zero (S := S1x1024) hz, View.ld_unit_zero (S := S2048x512) hz, View.ld_unit_zero (S := S1024x512) hz]

/-- The first point of a tile (`k = 0`): the total ends at the step's payload over the zero block. -/
theorem scratch_A (c : Dev nD) (i : grid0.Coords) (arg2 : Memref sig .tc .vmem S1x1024 .i32) (harg2 : arg2.IsWhole)
    (arg3 : Memref sig .tc .vmem S2048x512 .bf16) (harg3 : arg3.IsWhole) (arg4 : Memref sig .tc .vmem S1024x512 .f32) (harg4 : arg4.IsWhole)
    (arg5 : Memref sig .tc .vmem S1024x512 .f32) (harg5 : arg5.IsWhole) (hc0 : cond0_0 i) (hc1 : ¬cond0_1 i)
    (x0 : Vec F S1x1024 .i32) (x1 : Vec F S2048x512 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x512) hz, View.readCov_unit_zero (S := S1024x512) _ hz]
  simp only [View.readAt_eq_ld, harg2.read_unread, harg3.read_unread,
    View.ld_unit_zero (S := S1x1024) hz, View.ld_unit_zero (S := S2048x512) hz]

/-- The last point of a tile (`k = 3`): the total ends at the step's payload over the total the point found, -/
theorem scratch_C (c : Dev nD) (i : grid0.Coords) (arg2 : Memref sig .tc .vmem S1x1024 .i32) (harg2 : arg2.IsWhole)
    (arg3 : Memref sig .tc .vmem S2048x512 .bf16) (harg3 : arg3.IsWhole) (arg4 : Memref sig .tc .vmem S1024x512 .f32) (harg4 : arg4.IsWhole)
    (arg5 : Memref sig .tc .vmem S1024x512 .f32) (harg5 : arg5.IsWhole) (hc0 : ¬cond0_0 i) (hc1 : cond0_1 i)
    (x0 : Vec F S1x1024 .i32) (x1 : Vec F S2048x512 .bf16) (xs0 : Vec F S1024x512 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x512) hz]
  simp only [View.readAt_eq_ld, harg2.read_unread, harg3.read_unread, harg5.read_unread,
    View.ld_unit_zero (S := S1x1024) hz, View.ld_unit_zero (S := S2048x512) hz, View.ld_unit_zero (S := S1024x512) hz]

/-- and the output block ends at that same block, read back from the total after the store. -/
theorem out_C (c : Dev nD) (i : grid0.Coords) (arg2 : Memref sig .tc .vmem S1x1024 .i32) (harg2 : arg2.IsWhole)
    (arg3 : Memref sig .tc .vmem S2048x512 .bf16) (harg3 : arg3.IsWhole) (arg4 : Memref sig .tc .vmem S1024x512 .f32) (harg4 : arg4.IsWhole)
    (arg5 : Memref sig .tc .vmem S1024x512 .f32) (harg5 : arg5.IsWhole) (hc0 : ¬cond0_0 i) (hc1 : cond0_1 i)
    (x0 : Vec F S1x1024 .i32) (x1 : Vec F S2048x512 .bf16) (xs0 : Vec F S1024x512 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x512) hz, View.readCov_unit_zero (S := S1024x512) _ hz]
  simp only [View.readAt_eq_ld, harg2.read_unread, harg3.read_unread, harg5.read_unread,
    View.ld_unit_zero (S := S1x1024) hz, View.ld_unit_zero (S := S2048x512) hz, View.ld_unit_zero (S := S1024x512) hz]

end Cert.KernelIdeal.Body

end
-- ==== Proof.Blocks.lean ====
/-
  What the body reads at a grid point.

  The grid has 128 points, `t = 4 i + k` for token tile `i < 32` and code block `k < 4`. Before the kernel the index
  words are laid out as one row of 32768 and the codebook is narrowed to a shorter float format, which changes
  nothing at the extended reals. At point `t` the body is handed

    the index words of tile `i`: entry `(0, p)` is the word of token `1024 i + p`, and
    rows `2048 k …` of the codebook: entry `(j, q)` is row `2048 k + j`, column `q`,

  and writes back into rows `1024 i …` of the result array.
-/
import proofs.«125934_j49134425866735_1_alg».proof.Proof.Gen.KernelIdeal.Frame
import proofs.«125934_j49134425866735_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Body

open Cert.KernelIdeal Cert.KernelIdeal.Gen Cert.Codebook

variable (m : (ℓ : Loc nD τ sig) → Buf (Elt Ideal) ℓ)

/-- Where each window's block sits at grid point `t = 4 i + k`. -/
theorem block_at : ∀ t : Fin cfg0.N,
    (win0_0.index t 0 = 0 ∧ win0_0.index t 1 = t.val / 4)
    ∧ (win0_1.index t 0 = t.val % 4 ∧ win0_1.index t 1 = 0)
    ∧ (win0_2.index t 0 = t.val / 4 ∧ win0_2.index t 1 = 0) :=
  (by decide +kernel : ∀ t : Fin grid0.N,
    (win0_0.index t 0 = 0 ∧ win0_0.index t 1 = t.val / 4)
    ∧ (win0_1.index t 0 = t.val % 4 ∧ win0_1.index t 1 = 0)
    ∧ (win0_2.index t 0 = t.val / 4 ∧ win0_2.index t 1 = 0))

/-- The index words as the region finds them: the argument laid out as one row. -/
theorem words_in (c : Dev nD) :
    (V m c main_v0 : S1x32768.Idx → BitVec 32)
      = shapeCast S1x32768 (m ((c : Thread nD τ).loc main_arg0)) shapeCasts_S32768_S1x32768 := by
  show StableHlo.after hostOps0 (fun b => m (c, b)) (Proc.devRef .tc main_v0) = _
  after_results
  rfl

/-- The codebook as the region finds it: the argument, narrowed (at the extended reals: unchanged). -/
theorem book_in (c : Dev nD) :
    (V m c main_v1 : S8192x512.Idx → EReal) = m ((c : Thread nD τ).loc main_arg1) := by
  show StableHlo.after hostOps0 (fun b => m (c, b)) (Proc.devRef .tc main_v1) = _
  after_results
  rfl

/-- Token `p` of the tile of grid point `t`. -/
def tok (t : Fin cfg0.N) (p : Fin 1024) : Fin 32768 :=
  ⟨1024 * (t.val / 4) + p.val, by have := t.isLt; have hN : cfg0.N = 128 := N_0; omega⟩

/-- Entry `(0, p)` of the index words handed to point `t = 4 i + k`: the word of token `1024 i + p`. -/
theorem words_block (c : Dev nD) (t : Fin cfg0.N) (p : Fin 1024) :
    (iblk m c 0 t : Vec Ideal S1x1024 .i32) (ix2 (0 : Fin 1) p) = m ((c : Thread nD τ).loc main_arg0) (ix1 (tok t p)) := by
  unfold iblk
  rw [View.read_apply]
  show V m c main_v0 _ = _
  rw [words_in]
  refine shapeCast_apply _ _ _ (ix1 (tok t p)) ?_
  rw [Shape.rowMajor_val_one, Shape.rowMajor_val_two]
  show 1024 * (t.val / 4) + p.val
    = (win0_0.index t 0 * 1 + 1 * 0) * 32768 + (win0_0.index t 1 * 1024 + 1 * p.val)
  rw [(block_at t).1.1, (block_at t).1.2]
  omega

/-- Entry `(j, q)` of the block of codebook rows at grid point `t = 4 i + k`: row `2048 k + j` of the codebook. -/
theorem book_block (c : Dev nD) (t : Fin cfg0.N) (j : Fin 2048) (q : Fin 512) :
    (iblk m c 1 t : Vec Ideal S2048x512 .bf16) (ix2 j q)
      = rowAt (m ((c : Thread nD τ).loc main_arg1)) (2048 * (t.val % 4) + j.val) q := by
  unfold iblk rowAt
  rw [View.read_apply]
  show V m c main_v1 _ = _
  rw [book_in]
  refine congrArg (m ((c : Thread nD τ).loc main_arg1)) (funext fun a => Fin.ext ?_)
  match a with
  | ⟨0, _⟩ =>
    show win0_1.index t 0 * 2048 + 1 * j.val = (2048 * (t.val % 4) + j.val) % 8192
    rw [(block_at t).2.1.1]
    have := j.isLt
    omega
  | ⟨1, _⟩ =>
    show win0_1.index t 1 * 512 + 1 * q.val = q.val
    rw [(block_at t).2.1.2]
    omega

end Cert.KernelIdeal.Body

end
-- ==== Proof.Accum.lean ====
/-
  The total the kernel carries across the grid.

  Fix token `p` of tile `i`, with index word `x`, and a column `q`. One run of the body at point `t = 4 i + k` adds
  to the entry `(p, q)` it found the sum over block `k`,  ∑ j < 2048, hot x (2048 k + j) · w (2048 k + j, q)
  (`step_apply`: the body's arithmetic at an entry, on the blocks the point is handed). The first point of the tile
  starts from the zero block, every later point from what the point before left, so by induction on the point the
  entry after point `t` is the running total `partSum x w q (k + 1)` of blocks `0 … k` (`scratch_after`). At `k = 3`
  that is the whole lookup sum, and it is what the point copies to the output block (`out_last`).
-/
import proofs.«125934_j49134425866735_1_alg».proof.Proof.Payload
import proofs.«125934_j49134425866735_1_alg».proof.Proof.Pieces
import proofs.«125934_j49134425866735_1_alg».proof.Proof.Blocks

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Codebook

variable (m : (ℓ : Loc nD τ sig) → Buf (Elt Ideal) ℓ)

/-- Grid point `t = 4 i + k` is at block `k` of the codes. -/
theorem coord_k : ∀ t : Fin cfg0.N, (grid0.coords t 1).val = t.val % 4 :=
  (by decide +kernel : ∀ t : Fin grid0.N, (grid0.coords t 1).val = t.val % 4)

/-- One run of the body on the blocks of point `t`, at entry `(p, q)`: the total it found plus block `k`'s sum. -/
theorem step_apply (c : Dev nD) (t : Fin cfg0.N) (acc : Vec Ideal S1024x512 .f32) (p : Fin 1024) (q : Fin 512) :
    k0_pay2 (F := Ideal) (grid0.coords t) (iblk m c 0 t) (iblk m c 1 t) acc (ix2 p q)
      = acc (ix2 p q) + blockSum (m ((c : Thread nD τ).loc main_arg0) (ix1 (tok t p))) (m ((c : Thread nD τ).loc main_arg1)) q (t.val % 4) := by
  refine (accumulate_apply (grid0.coords t) (iblk m c 0 t) (iblk m c 1 t) acc p q).trans ?_
  unfold blockSum term
  refine congrArg (acc (ix2 p q) + ·) (Finset.sum_congr rfl fun j _ => ?_)
  rw [words_block m c t p, book_block m c t j q, coord_k t]

/-- At the first point of a token tile (`k = 0`) the body zeroes the total and adds block 0: the total after it is
    the running total of one block. -/
theorem scratch_first (c : Dev nD) (t : Fin cfg0.N) (h0 : t.val % 4 = 0) (p : Fin 1024) (q : Fin 512) :
    (outsAt0 m c t.val t.isLt).2 (ix2 p q)
      = partSum (m ((c : Thread nD τ).loc main_arg0) (ix1 (tok t p))) (m ((c : Thread nD τ).loc main_arg1)) q (t.val % 4 + 1) := by
  have h1 : ¬t.val % 4 = 3 := by omega
  rw [outsAt0_A m c t h0 h1]
  dsimp only
  refine (congrFun (scratch_A (F := Ideal) c _ _ _ _ _ _ _ _ _ _ _ _ _) (ix2 p q)).trans ?_
  refine (step_apply m c t (k0_pay1 (F := Ideal)) p q).trans ?_
  rw [zero_apply, h0, partSum_one]

/-- At a later point of the tile (`k = 1, 2, 3`) the body adds block `k` to the total the point before left. -/
theorem scratch_next (c : Dev nD) (t : Fin cfg0.N) (h0 : ¬t.val % 4 = 0) (p : Fin 1024) (q : Fin 512)
    (ih : (outsAt0 m c (t.val - 1) (Nat.lt_of_le_of_lt (Nat.sub_le _ _) t.isLt)).2 (ix2 p q)
      = partSum (m ((c : Thread nD τ).loc main_arg0) (ix1 (tok t p))) (m ((c : Thread nD τ).loc main_arg1)) q (t.val % 4)) :
    (outsAt0 m c t.val t.isLt).2 (ix2 p q)
      = partSum (m ((c : Thread nD τ).loc main_arg0) (ix1 (tok t p))) (m ((c : Thread nD τ).loc main_arg1)) q (t.val % 4 + 1) := by
  by_cases h1 : t.val % 4 = 3
  · rw [outsAt0_C m c t h0 h1]
    dsimp only
    refine (congrFun (scratch_C (F := Ideal) c _ _ _ _ _ _ _ _ _ _ _ _ _ _) (ix2 p q)).trans ?_
    refine (step_apply m c t _ p q).trans ?_
    rw [ih, partSum_succ]
  · rw [outsAt0_B m c t h0 h1]
    dsimp only
    refine (congrFun (scratch_B (F := Ideal) c _ _ _ _ _ _ _ _ _ _ _ _ _ _) (ix2 p q)).trans ?_
    refine (step_apply m c t _ p q).trans ?_
    rw [ih, partSum_succ]

/-- After every grid point `t = 4 i + k` the carried total holds, at `(p, q)`, the running total of blocks `0 … k`
    for token `p` of tile `i`: by induction on the point. -/
theorem scratch_after (c : Dev nD) : ∀ (n : ℕ) (hn : n < cfg0.N) (p : Fin 1024) (q : Fin 512),
    (outsAt0 m c n hn).2 (ix2 p q)
      = partSum (m ((c : Thread nD τ).loc main_arg0) (ix1 (tok ⟨n, hn⟩ p))) (m ((c : Thread nD τ).loc main_arg1)) q (n % 4 + 1) := by
  intro n
  induction n with
  | zero => intro hn p q; exact scratch_first m c ⟨0, hn⟩ rfl p q
  | succ n ih =>
    intro hn p q
    by_cases h0 : (n + 1) % 4 = 0
    · exact scratch_first m c ⟨n + 1, hn⟩ h0 p q
    · refine scratch_next m c ⟨n + 1, hn⟩ h0 p q ?_
      have e := ih (Nat.lt_of_succ_lt hn) p q
      have ht : tok ⟨n, Nat.lt_of_succ_lt hn⟩ p = tok ⟨n + 1, hn⟩ p := Fin.ext (by
        show 1024 * (n / 4) + p.val = 1024 * ((n + 1) / 4) + p.val
        omega)
      have hk : n % 4 + 1 = (n + 1) % 4 := by omega
      rw [ht, hk] at e
      exact e

/-- At the last point of a tile (`k = 3`) the body copies the total it has just stored into the output block: entry
    `(p, q)` of that block is the whole lookup sum for token `p` of the tile. -/
theorem out_last (c : Dev nD) (t : Fin cfg0.N) (h1 : t.val % 4 = 3) (p : Fin 1024) (q : Fin 512) :
    (outsAt0 m c t.val t.isLt).1 (ix2 p q)
      = fullSum (m ((c : Thread nD τ).loc main_arg0) (ix1 (tok t p))) (m ((c : Thread nD τ).loc main_arg1)) q := by
  have h0 : ¬t.val % 4 = 0 := by omega
  have hprev : t.val - 1 < cfg0.N := Nat.lt_of_le_of_lt (Nat.sub_le _ _) t.isLt
  have ih := scratch_after m c (t.val - 1) hprev p q
  have ht : tok ⟨t.val - 1, hprev⟩ p = tok t p := Fin.ext (by
    show 1024 * ((t.val - 1) / 4) + p.val = 1024 * (t.val / 4) + p.val
    omega)
  have hk : (t.val - 1) % 4 + 1 = t.val % 4 := by omega
  rw [ht, hk] at ih
  rw [outsAt0_C m c t h0 h1]
  dsimp only
  refine (congrFun (out_C (F := Ideal) c _ _ _ _ _ _ _ _ _ _ _ _ _ _) (ix2 p q)).trans ?_
  refine (step_apply m c t _ p q).trans ?_
  rw [ih, ← partSum_succ, h1, partSum_four]

end Cert.KernelIdeal.Body

end
-- ==== Proof.Final.lean ====
/-
  From the blocks written back to the kernel's result.

  The output block is written back at the last point of each token tile only, `t = 4 i + 3`, into rows `1024 i …` of
  the 32768 × 512 result array, and what it holds there is rows `1024 i …` of the looked-up array (`flushed_eq`).
  The 32 tiles fill the array (`cover`: entry `(n, e)` is in the tile of point `4 (n / 1024) + 3`), so the array ends
  holding the looked-up array (`array_eq`); the one host line after the kernel lays it out as 32 × 1024 × 512
  (`result_eq`), and the arguments are never written (`run`).
-/
import proofs.«125934_j49134425866735_1_alg».proof.Proof.Accum

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.Body

open Cert.KernelIdeal Cert.KernelIdeal.Gen Cert.Codebook

variable (m : (ℓ : Loc nD τ sig) → Buf (Elt Ideal) ℓ) (ρ : Dev nD → PrngReg)

/-- What the last point of tile `i` writes back is the looked-up array read through rows `1024 i …`. -/
theorem flushed_eq (c : Dev nD) (t : Fin cfg0.N) (hf : (cfg0.win 2).flush t = true) :
    (dats m 0 c).flushed 2 t = ((cfg0.win 2).blk t).view.read (Elt Ideal)
      (lookup (m ((c : Thread nD τ).loc main_arg0)) (m ((c : Thread nD τ).loc main_arg1))) := by
  have h3 : t.val % 4 = 3 := (flush0_2 t).mp hf
  show (cfg0.win 2).cut (grid0.coords t) ((dats m 0 c).after 2 t) = _
  rw [after0_2]
  refine funext fun (y : S1024x512.Idx) => ?_
  obtain ⟨p, q, rfl⟩ : ∃ (p : Fin 1024) (q : Fin 512), y = ix2 p q := ⟨y 0, y 1, eq_ix2 y⟩
  rw [View.read_apply]
  show (outsAt0 m c t.val t.isLt).1 (ix2 p q)
    = lookup (m ((c : Thread nD τ).loc main_arg0)) (m ((c : Thread nD τ).loc main_arg1)) (((cfg0.win 2).blk t).view.emb (ix2 p q))
  rw [out_last m c t h3 p q]
  unfold lookup
  have e0 : (((cfg0.win 2).blk t).view.emb (ix2 p q)) 0 = tok t p := Fin.ext (by
    show win0_2.index t 0 * 1024 + 1 * p.val = 1024 * (t.val / 4) + p.val
    rw [(block_at t).2.2.1]
    omega)
  have e1 : (((cfg0.win 2).blk t).view.emb (ix2 p q)) 1 = q := Fin.ext (by
    show win0_2.index t 1 * 512 + 1 * q.val = q.val
    rw [(block_at t).2.2.2]
    omega)
  rw [e0, e1]

/-- An entry of the result array lies in the block of point `t` exactly when each coordinate lies in the block's
    range on its axis. -/
theorem mem_blk (t : Fin cfg0.N) (i : S32768x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v2).slice (win0_2.rect t)).set ↔ _
  rw [View.set_slice_whole, Rect.mem_set_unit]
  exact Iff.rfl

/-- Every entry `(n, e)` of the result array is written back at the last point of its token tile, `4 (n / 1024) + 3`. -/
theorem cover (i : S32768x512.Idx) :
    ∃ t : Fin cfg0.N, (cfg0.win 2).flush t = true ∧ i ∈ ((cfg0.win 2).blk t).view.set := by
  have hi0 : (i 0).val < 32768 := (i 0).isLt
  have hi1 : (i 1).val < 512 := (i 1).isLt
  have hN : cfg0.N = 128 := N_0
  let t : Fin cfg0.N := ⟨4 * ((i 0).val / 1024) + 3, by omega⟩
  have ht : t.val = 4 * ((i 0).val / 1024) + 3 := rfl
  refine ⟨t, (flush0_2 t).mpr (by rw [ht]; omega), ?_⟩
  rw [mem_blk]
  intro a
  match a with
  | ⟨0, _⟩ =>
    show win0_2.index t 0 * 1024 ≤ (i 0).val ∧ (i 0).val < win0_2.index t 0 * 1024 + 1024
    rw [(block_at t).2.2.1, ht]
    omega
  | ⟨1, _⟩ =>
    show win0_2.index t 1 * 512 ≤ (i 1).val ∧ (i 1).val < win0_2.index t 1 * 512 + 512
    rw [(block_at t).2.2.2]
    omega

/-- The kernel's result array, before the final reshape, ends holding the looked-up array. -/
theorem array_eq (c : Dev nD) :
    (dats m 0 c).arrAt 2 cfg0.N = lookup (m ((c : Thread nD τ).loc main_arg0)) (m ((c : Thread nD τ).loc main_arg1)) :=
  (dats m 0 c).arrAt_eq_of_cover 2 _ (flushed_eq m c) cover

/-- The host line after the kernel reshapes the result array: the kernel's result is the looked-up array laid out as
    32 × 1024 × 512. -/
theorem result_eq (c : Dev nD) :
    Pipeline.afterTail₀ cfgs (dats m) 0 (V0 m) [hostOps1] c main_v3
      = shapeCast S32x1024x512 (lookup (m ((c : Thread nD τ).loc main_arg0)) (m ((c : Thread nD τ).loc main_arg1)))
          shapeCasts_S32768x512_S32x1024x512 := by
  unfold Pipeline.afterTail₀
  show StableHlo.after hostOps1 _ (Proc.devRef .tc main_v3) = _
  after_results
  have e : Pipeline.withArrays spec0 c (V0 m c) (fun w => (dats m 0 c).arrAt w cfg0.N) (Proc.devRef .tc (Pipeline.arrRef spec0 2))
      = lookup (m ((c : Thread nD τ).loc main_arg0)) (m ((c : Thread nD τ).loc main_arg1)) :=
    (Pipeline.withArrays_arr spec0 launch0.win.arr_inj c _ _ 2).trans (array_eq m c)
  funext i
  show shapeCast S32x1024x512
      (Pipeline.withArrays spec0 c (V0 m c) (fun w => (dats m 0 c).arrAt w cfg0.N) (Proc.devRef .tc (Pipeline.arrRef spec0 2)))
      shapeCasts_S32768x512_S32x1024x512 i = _
  rw [e]

/-- The kernel's run, read: every weakly fair execution ends with the result at the looked-up array, reshaped, and the
    arguments as they were. -/
theorem run : θ_run defs (onTc (τ := τ) (main (F := Ideal))) ⟨m, fun _ => 0, ρ⟩ fun r => ∀ c : Dev nD,
      r.2.mem ((c : Thread nD τ).loc main_v3)
        = shapeCast S32x1024x512 (lookup (m ((c : Thread nD τ).loc main_arg0)) (m ((c : Thread nD τ).loc main_arg1)))
            shapeCasts_S32768x512_S32x1024x512
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.lean ====
/-
  A codebook lookup written as a product with a one-hot matrix, computed two ways.

  The inputs are 32768 index words `idx` and a codebook `w` of 8192 rows of 512 entries. With `hot x r` the bit of
  "`x` is the 32-bit word of `r`" read as a number, both programs compute, for token `n` and column `e`,

      lookup idx w (n, e) = ∑ r < 8192, hot (idx n) r · w (r, e)

  and then lay the 32768 × 512 array out as 32 × 1024 × 512.

  The reference builds the whole 32768 × 8192 one-hot matrix and contracts it with `w` in one product: entry `(n, e)`
  is that sum as it stands (`RefSide.lean`).

  The kernel walks a grid of 32 token tiles by 4 code blocks. At point `(i, k)` it builds the transposed one-hot block
  of the 2048 codes `2048 k …` against the 1024 tokens of tile `i`, contracts it with rows `2048 k …` of `w`, and adds
  the product to a total it carries from point to point, zeroed at `k = 0` and copied to the output tile at `k = 3`
  (`Payload.lean`: one step at an entry; `Pieces.lean`, `Blocks.lean`: what a step leaves and what it reads;
  `Accum.lean`: after point `(i, k)` the total is the sum over the first `k + 1` blocks, by induction on the point;
  `Final.lean`: the tiles written back at `k = 3` fill the array). Four consecutive blocks of 2048 terms are the
  8192 terms (`Spec.lean`), and regrouping a finite sum is free on the extended reals: addition there is commutative
  and associative with no side condition, so the finiteness of the inputs is never used. An index word outside
  `0 … 8191` matches no code on either side and gives a zero row in both.

  The codebook's narrowing to a shorter float format before the kernel, and the one-hot block's, are the identity at
  the extended reals; the ideal pass rewrote nothing, so that conjunct is trivial. The three frames are the
  generated ones (the reference's is its generated run with the result dropped).
-/
import proofs.«125934_j49134425866735_1_alg».proof.Defs
import proofs.«125934_j49134425866735_1_alg».proof.Proof.Gen.Kernel
import proofs.«125934_j49134425866735_1_alg».proof.Proof.Gen.Kernel.Frame
import proofs.«125934_j49134425866735_1_alg».proof.Proof.Gen.KernelIdeal
import proofs.«125934_j49134425866735_1_alg».proof.Proof.Gen.KernelIdeal.Frame
import proofs.«125934_j49134425866735_1_alg».proof.Proof.Gen.ReferenceIdeal
import proofs.«125934_j49134425866735_1_alg».proof.Proof.Gen.ReferenceIdeal.Run
import proofs.«125934_j49134425866735_1_alg».proof.Proof.Gen.ReferenceIdeal.Read
import proofs.«125934_j49134425866735_1_alg».proof.Proof.Gen.Pre_finite_inputs
import proofs.«125934_j49134425866735_1_alg».proof.Proof.RefSide
import proofs.«125934_j49134425866735_1_alg».proof.Proof.Final
import Idealize.ShloMosaic.Adequacy
import Idealize.ShloMosaic.Init

noncomputable section

namespace Cert.Proof

open Idealize.ShloMosaic Idealize.ShloMosaic.TcCoe Idealize.SL.Sem Cert.Codebook

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the looked-up array of arguments that agree, laid out as 32 × 1024 × 512. -/
theorem algebraic : Cert.algebraic_KernelIdeal_ReferenceIdeal := by
  intro m ρ m' ρ' _ hagree
  refine ⟨fun c => shapeCast Cert.KernelIdeal.S32x1024x512
      (lookup (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Facts₀.shapeCasts_S32768x512_S32x1024x512,
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq]
  unfold Cert.ReferenceIdeal.Read.val_main_v2
  rw [Cert.ReferenceIdeal.RefValue.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
